-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x640 : Shape := ⟨3, ![8, 64, 640]⟩
abbrev S512x512 : Shape := ⟨2, ![512, 512]⟩
abbrev S512 : Shape := ⟨1, ![512]⟩
abbrev S512x640 : Shape := ⟨2, ![512, 640]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x640 : S_.BroadcastsInDim S8x64x640 (![] : Fin 0 → Fin S8x64x640.rank)
  reducesTo_S8x64x640_S_d0_1_2 : S8x64x640.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x640 : S_.BroadcastsInDim S512x640 (![] : Fin 0 → Fin S512x640.rank)
  reducesTo_S512x640_S_d0_1 : S512x640.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x640 .f32) (main_arg5 : FVec F S512 .f32) (main_arg6 : FVec F S1024x512 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x640 .f32 := Host.absf main_arg4
  let main_cst_6 : FVec F S_ .f32 := constant S_ .f32 0x7F800000#32
  let main_v20 : FVec F S512x640 .f32 := broadcastInDim S512x640 ![] bcast_S_S512x640 main_cst_6
  let main_v21 : IVec S512x640 1 := cmpf .olt main_v19 main_v20
  let main_c_7 : IVec S_ 1 := constantI S_ 1 1#1
  let main_v22 : IVec S_ 1 := (fun x v => Host.reduce IntOp.andi x v reducesTo_S512x640_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_v33

def fn {F : FTy → Type} [FloatOps F] (main_arg0 : FVec F S8x256x512 .f32) (main_arg1 : FVec F S8x64x640 .f32) (main_arg2 : FVec F S512x512 .f32) (main_arg3 : FVec F S512 .f32) (main_arg4 : FVec F S512x640 .f32) (main_arg5 : FVec F S512 .f32) (main_arg6 : FVec F S1024x512 .f32) (main_arg7 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x640 .f32 := Host.absf main_arg1
  let main_cst_0 : FVec F S_ .f32 := constant S_ .f32 0x7F800000#32
  let main_v5 : FVec F S8x64x640 .f32 := broadcastInDim S8x64x640 ![] bcast_S_S8x64x640 main_cst_0
  let main_v6 : IVec S8x64x640 1 := cmpf .olt main_v4 main_v5
  let main_c_1 : IVec S_ 1 := constantI S_ 1 1#1
  let main_v7 : IVec S_ 1 := (fun x v => Host.reduce IntOp.andi x v reducesTo_S8x64x640_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x256x512 : Shape := ⟨3, ![8, 256, 512]⟩
abbrev S8x64x640 : Shape := ⟨3, ![8, 64, 640]⟩
abbrev S512x512 : Shape := ⟨2, ![512, 512]⟩
abbrev S512 : Shape := ⟨1, ![512]⟩
abbrev S512x640 : Shape := ⟨2, ![512, 640]⟩
abbrev S1024x512 : Shape := ⟨2, ![1024, 512]⟩
abbrev S1024 : Shape := ⟨1, ![1024]⟩
abbrev S1x256x512 : Shape := ⟨3, ![1, 256, 512]⟩
abbrev S256x512 : Shape := ⟨2, ![256, 512]⟩
abbrev S1x512 : Shape := ⟨2, ![1, 512]⟩
abbrev S8x64x512 : Shape := ⟨3, ![8, 64, 512]⟩
abbrev S1x64x640 : Shape := ⟨3, ![1, 64, 640]⟩
abbrev S1x64x512 : Shape := ⟨3, ![1, 64, 512]⟩
abbrev S64x640 : Shape := ⟨2, ![64, 640]⟩
abbrev S640x512 : Shape := ⟨2, ![640, 512]⟩
abbrev S64x512 : Shape := ⟨2, ![64, 512]⟩
abbrev S8x256x64x1024 : Shape := ⟨4, ![8, 256, 64, 1024]⟩
abbrev S1x128x512 : Shape := ⟨3, ![1, 128, 512]⟩
abbrev S256 : Shape := ⟨1, ![256]⟩
abbrev S1x128x64x256 : Shape := ⟨4, ![1, 128, 64, 256]⟩
abbrev S128x512 : Shape := ⟨2, ![128, 512]⟩
abbrev S128x1x512 : Shape := ⟨3, ![128, 1, 512]⟩
abbrev S128x64x512 : Shape := ⟨3, ![128, 64, 512]⟩
abbrev S8192x512 : Shape := ⟨2, ![8192, 512]⟩
abbrev S512x256 : Shape := ⟨2, ![512, 256]⟩
abbrev S8192x256 : Shape := ⟨2, ![8192, 256]⟩
abbrev S128x64x256 : Shape := ⟨3, ![128, 64, 256]⟩
abbrev S1x1x256 : Shape := ⟨3, ![1, 1, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x256x512, .f32⟩
  | .hbm, ⟨1, _⟩ => ⟨S8x64x640, .f32⟩
  | .hbm, ⟨2, _⟩ => ⟨S512x512, .f32⟩
  | .hbm, ⟨3, _⟩ => ⟨S512, .f32⟩
  | .hbm, ⟨4, _⟩ => ⟨S512x640, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S8x256x512, .f32⟩
  | .hbm, ⟨9, _⟩ => ⟨S8x64x512, .f32⟩
  | .hbm, ⟨10, _⟩ => ⟨S8x256x64x1024, .f32⟩
  | .local _ .vmem, ⟨0, _⟩ => ⟨S1x256x512, .f32⟩
  | .local _ .vmem, ⟨1, _⟩ => ⟨S1x256x512, .f32⟩
  | .local _ .vmem, ⟨2, _⟩ => ⟨S512x512, .f32⟩
  | .local _ .vmem, ⟨3, _⟩ => ⟨S512, .f32⟩
  | .local _ .vmem, ⟨4, _⟩ => ⟨S1x256x512, .f32⟩
  | .local _ .vmem, ⟨5, _⟩ => ⟨S1x256x512, .f32⟩
  | .local _ .vmem, ⟨6, _⟩ => ⟨S1x64x640, .f32⟩
  | .local _ .vmem, ⟨7, _⟩ => ⟨S1x64x640, .f32⟩
  | .local _ .vmem, ⟨8, _⟩ => ⟨S512x640, .f32⟩
  | .local _ .vmem, ⟨9, _⟩ => ⟨S512, .f32⟩
  | .local _ .vmem, ⟨10, _⟩ => ⟨S1x64x512, .f32⟩
  | .local _ .vmem, ⟨11, _⟩ => ⟨S1x64x512, .f32⟩
  | .local _ .vmem, ⟨12, _⟩ => ⟨S1x128x512, .f32⟩
  | .local _ .vmem, ⟨13, _⟩ => ⟨S1x128x512, .f32⟩
  | .local _ .vmem, ⟨14, _⟩ => ⟨S1x64x512, .f32⟩
  | .local _ .vmem, ⟨15, _⟩ => ⟨S1x64x512, .f32⟩
  | .local _ .vmem, ⟨16, _⟩ => ⟨S256x512, .f32⟩
  | .local _ .vmem, ⟨17, _⟩ => ⟨S256x512, .f32⟩
  | .local _ .vmem, ⟨18, _⟩ => ⟨S256, .f32⟩
  | .local _ .vmem, ⟨19, _⟩ => ⟨S256, .f32⟩
  | .local _ .vmem, ⟨20, _⟩ => ⟨S1x128x64x256, .f32⟩
  | .local _ .vmem, ⟨21, _⟩ => ⟨S1x128x64x256, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 2, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_3 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat]

def cc2_transform_4 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage2_0 : Fin 2 → Memref sig .tc .vmem S1x128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x64x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, true]

abbrev stage2_3 : Fin 2 → Memref sig .tc .vmem S256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, false, true]

abbrev stage2_4 : Fin 2 → Memref sig .tc .vmem S1x128x64x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  shapeCasts_S256x512_S1x256x512 : S256x512.ShapeCasts S1x256x512
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  inb_S512x640_S512x640_0_0 : ∀ a, (![0, 0] : Fin 2 → Nat) a + S512x640.size a ≤ S512x640.size a
  h_S512x640 : 0 < S512x640.numel
  transposes_S512x640_p1_0_S640x512 : S512x640.Transposes [1, 0] S640x512
  broadcasts_S1x512_S64x512 : S1x512.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S128x1x512 : S128x512.ShapeCasts S128x1x512
  broadcasts_S128x1x512_S128x64x512 : S128x1x512.Broadcasts S128x64x512
  broadcasts_S1x64x512_S128x64x512 : S1x64x512.Broadcasts S128x64x512
  shapeCasts_S128x64x512_S8192x512 : S128x64x512.ShapeCasts S8192x512
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  shapeCasts_S8192x256_S128x64x256 : S8192x256.ShapeCasts S128x64x256
  inb_S256_S256_0 : ∀ a, (![0] : Fin 1 → Nat) a + S256.size a ≤ S256.size a
  h_S256 : 0 < S256.numel
  shapeCasts_S256_S1x1x256 : S256.ShapeCasts S1x1x256
  broadcasts_S1x1x256_S128x64x256 : S1x1x256.Broadcasts S128x64x256
  inb_S1x128x64x256_S1x128x64x256_0_0_0_0 : ∀ a, (![0, 0, 0, 0] : Fin 4 → Nat) a + S1x128x64x256.size a ≤ S1x128x64x256.size a
  h_S1x128x64x256 : 0 < S1x128x64x256.numel
  shapeCasts_S1x128x64x256_S128x64x256 : S1x128x64x256.ShapeCasts S128x64x256
  shapeCasts_S128x64x256_S1x128x64x256 : S128x64x256.ShapeCasts S1x128x64x256
  dot_S256x512_S512x512_S256x512_1_0_0_1_n_n_wf : DotDims.WF S256x512 S512x512 S256x512 [1] [0] [0] [1] [] []
  dot_S64x640_S640x512_S64x512_1_0_0_1_n_n_wf : DotDims.WF S64x640 S640x512 S64x512 [1] [0] [0] [1] [] []
  dot_S8192x512_S512x256_S8192x256_1_0_0_1_n_n_wf : DotDims.WF S8192x512 S512x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x256x512.size a
  hwx0_0 : ∀ i : grid0.Coords, EltTy.bits .f32 = 32 ∨ (Rect.block (s := S8x256x512) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S8x256x512.size a
  hwx0_3 : ∀ i : grid0.Coords, EltTy.bits .f32 = 32 ∨ (Rect.block (s := S8x256x512) S1x256x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x640.size a ≤ S8x64x640.size a
  hwx1_0 : ∀ i : grid1.Coords, EltTy.bits .f32 = 32 ∨ (Rect.block (s := S8x64x640) S1x64x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x640.size a ≤ S512x640.size a
  hwx1_1 : ∀ i : grid1.Coords, EltTy.bits .f32 = 32 ∨ (Rect.block (s := S512x640) S512x640.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x512.size a ≤ S8x64x512.size a
  hwx1_3 : ∀ i : grid1.Coords, EltTy.bits .f32 = 32 ∨ (Rect.block (s := S8x64x512) S1x64x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x512.size a ≤ S8x256x512.size a
  hwx2_0 : ∀ i : grid2.Coords, EltTy.bits .f32 = 32 ∨ (Rect.block (s := S8x256x512) S1x128x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x512.size a ≤ S8x64x512.size a
  hwx2_1 : ∀ i : grid2.Coords, EltTy.bits .f32 = 32 ∨ (Rect.block (s := S8x64x512) S1x64x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S1024x512.size a
  hwx2_2 : ∀ i : grid2.Coords, EltTy.bits .f32 = 32 ∨ (Rect.block (s := S1024x512) S256x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S1024.size a
  hwx2_3 : ∀ i : grid2.Coords, EltTy.bits .f32 = 32 ∨ (Rect.block (s := S1024) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x128x64x256.size a ≤ S8x256x64x1024.size a
  hwx2_4 : ∀ i : grid2.Coords, EltTy.bits .f32 = 32 ∨ (Rect.block (s := S8x256x64x1024) S1x128x64x256.size (cc2_transform_4 i) (hinb2_4 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S64x640_S640x512_S64x512_1_0_0_1_n_n : DotDims S64x640 S640x512 S64x512 where
  lhsContracting := [1]
  rhsContracting := [0]
  lhsNonContracting := [0]
  rhsNonContracting := [1]
  lhsBatch := []
  rhsBatch := []
  wf := dot_S64x640_S640x512_S64x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x64x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1x128x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x64x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x128x64x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x256x512 : Shape := ⟨3, ![8, 256, 512]⟩
abbrev S8x64x640 : Shape := ⟨3, ![8, 64, 640]⟩
abbrev S512x512 : Shape := ⟨2, ![512, 512]⟩
abbrev S512 : Shape := ⟨1, ![512]⟩
abbrev S512x640 : Shape := ⟨2, ![512, 640]⟩
abbrev S1024x512 : Shape := ⟨2, ![1024, 512]⟩
abbrev S1024 : Shape := ⟨1, ![1024]⟩
abbrev S1x1x512 : Shape := ⟨3, ![1, 1, 512]⟩
abbrev S8x64x512 : Shape := ⟨3, ![8, 64, 512]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S8x256x64x1024 : Shape := ⟨4, ![8, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x640, .f32⟩
  | .hbm, ⟨2, _⟩ => ⟨S512x512, .f32⟩
  | .hbm, ⟨3, _⟩ => ⟨S512, .f32⟩
  | .hbm, ⟨4, _⟩ => ⟨S512x640, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S8x256x512, .f32⟩
  | .hbm, ⟨9, _⟩ => ⟨S1x1x512, .f32⟩
  | .hbm, ⟨10, _⟩ => ⟨S8x256x512, .f32⟩
  | .hbm, ⟨11, _⟩ => ⟨S8x256x512, .f32⟩
  | .hbm, ⟨12, _⟩ => ⟨S8x64x512, .f32⟩
  | .hbm, ⟨13, _⟩ => ⟨S1x1x512, .f32⟩
  | .hbm, ⟨14, _⟩ => ⟨S8x64x512, .f32⟩
  | .hbm, ⟨15, _⟩ => ⟨S8x64x512, .f32⟩
  | .hbm, ⟨16, _⟩ => ⟨S8x256x1x512, .f32⟩
  | .hbm, ⟨17, _⟩ => ⟨S8x1x64x512, .f32⟩
  | .hbm, ⟨18, _⟩ => ⟨S8x256x64x512, .f32⟩
  | .hbm, ⟨19, _⟩ => ⟨S8x256x64x512, .f32⟩
  | .hbm, ⟨20, _⟩ => ⟨S8x256x64x512, .f32⟩
  | .hbm, ⟨21, _⟩ => ⟨S8x256x64x512, .f32⟩
  | .hbm, ⟨22, _⟩ => ⟨S8x256x64x1024, .f32⟩
  | .hbm, ⟨23, _⟩ => ⟨S1x1x1x1024, .f32⟩
  | .hbm, ⟨24, _⟩ => ⟨S8x256x64x1024, .f32⟩
  | .hbm, ⟨25, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x256x512_0_1_2 : S1x1x512.BroadcastsInDim S8x256x512 (![0, 1, 2] : Fin 3 → Fin S8x256x512.rank)
  bcast_S1x1x512_S8x64x512_0_1_2 : S1x1x512.BroadcastsInDim S8x64x512 (![0, 1, 2] : Fin 3 → Fin S8x64x512.rank)
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x512_S512x512_S8x256x512_2_1_01_0_n_n_wf : DotDims.WF S8x256x512 S512x512 S8x256x512 [2] [1] [0, 1] [0] [] []
  dot_S8x64x640_S512x640_S8x64x512_2_1_01_0_n_n_wf : DotDims.WF S8x64x640 S512x640 S8x64x512 [2] [1] [0, 1] [0] [] []
  dot_S8x256x64x512_S1024x512_S8x256x64x1024_3_1_012_0_n_n_wf : DotDims.WF S8x256x64x512 S1024x512 S8x256x64x1024 [3] [1] [0, 1, 2] [0] [] []

variable [Facts₀]

def dot_S8x256x512_S512x512_S8x256x512_2_1_01_0_n_n : DotDims S8x256x512 S512x512 S8x256x512 where
  lhsContracting := [2]
  rhsContracting := [1]
  lhsNonContracting := [0, 1]
  rhsNonContracting := [0]
  lhsBatch := []
  rhsBatch := []
  wf := dot_S8x256x512_S512x512_S8x256x512_2_1_01_0_n_n_wf
def dot_S8x64x640_S512x640_S8x64x512_2_1_01_0_n_n : DotDims S8x64x640 S512x640 S8x64x512 where
  lhsContracting := [2]
  rhsContracting := [1]
  lhsNonContracting := [0, 1]
  rhsNonContracting := [0]
  lhsBatch := []
  rhsBatch := []
  wf := dot_S8x64x640_S512x640_S8x64x512_2_1_01_0_n_n_wf
def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.LibUnitAxes.lean ====
/-
  A vector `[a]` viewed as a `[1, 1, a]` array (two leading unit axes added), read at an index written by
  coordinates: entry `(u, v, i)` is the vector's entry `i`, whatever the two unit coordinates. (The inverse of the
  cast `[1, 1, a] → [a]`; what storing a row vector into a block with two leading unit axes does.)
-/
import Idealize.ShloMosaic.Lib.Pipeline.Value
import Idealize.ShloMosaic.Lib.ValueIdx

namespace Cert.LibUnitAxes

open Idealize.ShloMosaic Idealize.ShloMosaic.ValueIdx

variable {α : Type}

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]
    simp)

/-- A `[b, 1, a]` array cast to `[b, a]` (the middle unit axis dropped) reads, at `(p, i)`, the operand at
    `(p, 0, i)`. -/
theorem shapeCast_b1a_ba_apply {a b : ℕ} (x : (⟨3, ![b, 1, a]⟩ : Shape).Idx → α)
    (h : (⟨3, ![b, 1, a]⟩ : Shape).ShapeCasts ⟨2, ![b, a]⟩) (p : Fin b) (i : Fin a) :
    shapeCast ⟨2, ![b, a]⟩ x h (ix2 p i) = x (ix3 p (0 : Fin 1) i) :=
  shapeCast_apply x h _ _ (by
    rw [Shape.rowMajor_val_three, Shape.rowMajor_val_two]
    show (p.val * 1 + 0) * a + i.val = p.val * a + i.val
    rw [Nat.mul_one, Nat.add_zero])

end Cert.LibUnitAxes
-- ==== Proof.LibMiddleAxis.lean ====
/-
  A unit axis in the MIDDLE of a rank-3 array, read at an index written by coordinates, for any extents: a matrix
  `[a, b]` viewed as `[a, 1, b]` (each row becomes a one-row slab), and an `[a, 1, b]` array broadcast along its
  middle axis to `[a, c, b]` (every slab's one row repeated `c` times). Each is the general read-at-an-index lemma
  with its arithmetic side condition discharged.
-/
import Idealize.ShloMosaic.Lib.Pipeline.Value
import Idealize.ShloMosaic.Lib.ValueIdx

namespace Cert.LibMiddleAxis

open Idealize.ShloMosaic Idealize.ShloMosaic.ValueIdx

variable {α : Type}

/-- An `[a, b]` array cast to `[a, 1, b]` reads, at `(p, u, j)`, the operand at `(p, j)`, whatever the unit
    coordinate `u`: both have row-major position `p · b + j`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (j : Fin b) :
    shapeCast ⟨3, ![a, 1, b]⟩ x h (ix3 p u j) = x (ix2 p j) :=
  shapeCast_apply x h _ _ (by
    have hu : u.val = 0 := by omega
    rw [Shape.rowMajor_val_three, Shape.rowMajor_val_two]
    show p.val * b + j.val = (p.val * 1 + u.val) * b + j.val
    rw [hu, Nat.mul_one, Nat.add_zero])

/-- An `[a, 1, b]` array broadcast to `[a, c, b]` reads, at `(p, q, j)`, the operand's slab `p` at its one row,
    column `j`. -/
theorem broadcastTo_a1b_acb_apply {a b c : ℕ} (v : (⟨3, ![a, 1, b]⟩ : Shape).Idx → α)
    (h : (⟨3, ![a, 1, b]⟩ : Shape).Broadcasts ⟨3, ![a, c, b]⟩) (p : Fin a) (q : Fin c) (j : Fin b) :
    broadcastTo ⟨3, ![a, c, b]⟩ v h (ix3 p q j) = v (ix3 p (0 : Fin 1) j) := by
  refine broadcastTo_apply v h (ix3 p q j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if b = 1 then 0 else j.val
    split
    · have := j.isLt; omega
    · rfl

end Cert.LibMiddleAxis
-- ==== Proof.Body.lean ====
/-
  What each of the three kernel bodies stores, read at one entry of its block, on the extended reals.

  A projection body multiplies the block's rows by the TRANSPOSE of the weight block it loaded (so entry `(p, j)` pairs
  row `p` of the input with row `j` of the weights), starts from zero, and adds the bias row to every row. The
  roundings to a shorter float format on the way into the product are the identity on the extended reals.
  The joint body forms, for every pair of an encoder row `p` and a predictor row `q`, the row `tanh (e p + g q)`,
  lists those rows pair after pair (row `p · 64 + q` of an `[8192, 512]` matrix), multiplies by the transposed output
  weights, un-lists the rows and adds the output bias.
-/
import proofs.«175210_j9182640079287_1_alg».proof.Proof.Gen.KernelIdeal.Skeleton
import proofs.«175210_j9182640079287_1_alg».proof.Proof.LibDense
import proofs.«175210_j9182640079287_1_alg».proof.Proof.LibLayout3
import proofs.«175210_j9182640079287_1_alg».proof.Proof.LibUnitAxes
import proofs.«175210_j9182640079287_1_alg».proof.Proof.LibMiddleAxis
import Idealize.ShloMosaic.Lib.ValueLayout

noncomputable section

open scoped BigOperators

namespace Cert.KernelIdeal.Body

open Cert.KernelIdeal Cert.KernelIdeal.Gen Idealize.ShloMosaic Idealize.ShloMosaic.ValueIdx

/-- The encoder projection's block: entry `(p, j)` is row `p` of the loaded input block against row `j` of the
    weights, plus bias `j`. -/
theorem pay_enc (x0 : Vec Ideal S1x256x512 .f32) (x1 : Vec Ideal S512x512 .f32) (x2 : Vec Ideal S512 .f32)
    (u : Fin 1) (p : Fin 256) (j : Fin 512) :
    k0_pay1 (F := Ideal) x0 x1 x2 (ix3 u p j)
      = (∑ k : Fin 512, x0 (ix3 (0 : Fin 1) p k) * x1 (ix2 j k)) + x2 (ix1 j) := by
  unfold k0_pay1
  rw [shapeCast_ab_1ab_apply, addf_apply,
    Cert.LibDense.matmul2d_apply _ rfl rfl rfl rfl rfl rfl, broadcastTo_1b_ab_apply, shapeCast_a_1a_apply]
  refine congrArg (· + x2 (ix1 j)) (Finset.sum_congr rfl fun k _ => ?_)
  rw [truncf_apply, shapeCast_1ab_ab_apply, transpose_ix2_apply, truncf_apply]

/-- The predictor projection's block: entry `(q, j)` is row `q` of the loaded input block against row `j` of the
    weights, plus bias `j`. -/
theorem pay_pred (x0 : Vec Ideal S1x64x640 .f32) (x1 : Vec Ideal S512x640 .f32) (x2 : Vec Ideal S512 .f32)
    (u : Fin 1) (q : Fin 64) (j : Fin 512) :
    k1_pay1 (F := Ideal) x0 x1 x2 (ix3 u q j)
      = (∑ k : Fin 640, x0 (ix3 (0 : Fin 1) q k) * x1 (ix2 j k)) + x2 (ix1 j) := by
  unfold k1_pay1
  rw [shapeCast_ab_1ab_apply, addf_apply,
    Cert.LibDense.matmul2d_apply _ rfl rfl rfl rfl rfl rfl, broadcastTo_1b_ab_apply, shapeCast_a_1a_apply]
  refine congrArg (· + x2 (ix1 j)) (Finset.sum_congr rfl fun k _ => ?_)
  rw [truncf_apply, shapeCast_1ab_ab_apply, transpose_ix2_apply, truncf_apply]

/-- The joint body's block: entry `(p, q, v)` sums, over the hidden axis, `tanh` of encoder row `p` plus predictor row
    `q` against row `v` of the output weights, and adds bias `v`. The pair `(p, q)` is row `p · 64 + q` of the matrix
    the product is taken of. -/
theorem pay_joint (x0 : Vec Ideal S1x128x512 .f32) (x1 : Vec Ideal S1x64x512 .f32) (x2 : Vec Ideal S256x512 .f32)
    (x3 : Vec Ideal S256 .f32) (u : Fin 1) (p : Fin 128) (q : Fin 64) (v : Fin 256) :
    k2_pay1 (F := Ideal) x0 x1 x2 x3 (ix4 u p q v)
      = (∑ j : Fin 512, Ideal.tanh (x0 (ix3 (0 : Fin 1) p j) + x1 (ix3 (0 : Fin 1) q j)) * x2 (ix2 v j))
        + x3 (ix1 v) := by
  have hr : p.val * 64 + q.val < 8192 := by have := p.isLt; have := q.isLt; omega
  unfold k2_pay1
  rw [shapeCast_abc_1abc_apply, addf_apply, shapeCast_nc_abc_apply _ _ p q v ⟨p.val * 64 + q.val, hr⟩ rfl,
    Cert.LibDense.matmul2d_apply _ rfl rfl rfl rfl rfl rfl, broadcastTo_11b_cab_apply,
    Cert.LibUnitAxes.shapeCast_a_11a_apply]
  refine congrArg (· + x3 (ix1 v)) (Finset.sum_congr rfl fun j _ => ?_)
  rw [shapeCast_abc_nc_apply _ _ ⟨p.val * 64 + q.val, hr⟩ j p q rfl, truncf_apply, Cert.LibDense.tanh_apply, addf_apply,
    Cert.LibMiddleAxis.broadcastTo_a1b_acb_apply, Cert.LibMiddleAxis.shapeCast_ab_a1b_apply, shapeCast_1ab_ab_apply,
    broadcastTo_1ab_cab_apply, shapeCast_ab_1ab_apply, shapeCast_1ab_ab_apply, transpose_ix2_apply, truncf_apply]

end Cert.KernelIdeal.Body

end
-- ==== Proof.Spec.lean ====
/-
  The joint network of a sequence transducer, as three functions on the extended reals.

  A projection sends a batch of rows `x[b, t, ·]` through a dense layer whose weights are stored one OUTPUT per row,
  `w[j, ·]`, and adds that output's bias: `proj x w β (b, t, j) = Σ_k x[b, t, k] · w[j, k] + β[j]`.
  The joint step adds an encoder row and a predictor row of the same batch entry, applies `tanh` entrywise, sends the
  result through a second dense layer of the same storage and adds its bias:
  `joint e p w β (b, t, u, v) = Σ_j tanh (e[b, t, j] + p[b, u, j]) · w[v, j] + β[v]`.
  The whole network is the joint step of the two projections. Nothing here needs the entries to be finite: the two
  programs compared against this text perform these operations in this grouping, so they agree on every extended real.
-/
import Idealize.ShloMosaic.Lib.ValueIdx

noncomputable section

open scoped BigOperators

namespace Cert.Joint

open Idealize.ShloMosaic Idealize.ShloMosaic.ValueIdx

/-- One entry of a projection: row `(b, t)` of `x` against row `j` of the weights, plus the bias of output `j`. -/
def projAt {B T K J : ℕ} (x : (⟨3, ![B, T, K]⟩ : Shape).Idx → EReal) (w : (⟨2, ![J, K]⟩ : Shape).Idx → EReal)
    (β : (⟨1, ![J]⟩ : Shape).Idx → EReal) (b : Fin B) (t : Fin T) (j : Fin J) : EReal :=
  (∑ k : Fin K, x (ix3 b t k) * w (ix2 j k)) + β (ix1 j)

/-- The projection as an array. -/
def proj {B T K J : ℕ} (x : (⟨3, ![B, T, K]⟩ : Shape).Idx → EReal) (w : (⟨2, ![J, K]⟩ : Shape).Idx → EReal)
    (β : (⟨1, ![J]⟩ : Shape).Idx → EReal) : (⟨3, ![B, T, J]⟩ : Shape).Idx → EReal :=
  fun i => projAt x w β (i 0) (i 1) (i 2)

theorem proj_ix3 {B T K J : ℕ} (x : (⟨3, ![B, T, K]⟩ : Shape).Idx → EReal) (w : (⟨2, ![J, K]⟩ : Shape).Idx → EReal)
    (β : (⟨1, ![J]⟩ : Shape).Idx → EReal) (b : Fin B) (t : Fin T) (j : Fin J) :
    proj x w β (ix3 b t j) = projAt x w β b t j := rfl

/-- One entry of the joint step. -/
def jointAt {B T U J V : ℕ} (e : (⟨3, ![B, T, J]⟩ : Shape).Idx → EReal) (p : (⟨3, ![B, U, J]⟩ : Shape).Idx → EReal)
    (w : (⟨2, ![V, J]⟩ : Shape).Idx → EReal) (β : (⟨1, ![V]⟩ : Shape).Idx → EReal)
    (b : Fin B) (t : Fin T) (u : Fin U) (v : Fin V) : EReal :=
  (∑ j : Fin J, Ideal.tanh (e (ix3 b t j) + p (ix3 b u j)) * w (ix2 v j)) + β (ix1 v)

/-- The joint step as an array. -/
def joint {B T U J V : ℕ} (e : (⟨3, ![B, T, J]⟩ : Shape).Idx → EReal) (p : (⟨3, ![B, U, J]⟩ : Shape).Idx → EReal)
    (w : (⟨2, ![V, J]⟩ : Shape).Idx → EReal) (β : (⟨1, ![V]⟩ : Shape).Idx → EReal) :
    (⟨4, ![B, T, U, V]⟩ : Shape).Idx → EReal :=
  fun i => jointAt e p w β (i 0) (i 1) (i 2) (i 3)

theorem joint_ix4 {B T U J V : ℕ} (e : (⟨3, ![B, T, J]⟩ : Shape).Idx → EReal) (p : (⟨3, ![B, U, J]⟩ : Shape).Idx → EReal)
    (w : (⟨2, ![V, J]⟩ : Shape).Idx → EReal) (β : (⟨1, ![V]⟩ : Shape).Idx → EReal)
    (b : Fin B) (t : Fin T) (u : Fin U) (v : Fin V) :
    joint e p w β (ix4 b t u v) = jointAt e p w β b t u v := rfl

/-- The network: both projections, then the joint step. -/
def network {B T U E P J V : ℕ} (enc : (⟨3, ![B, T, E]⟩ : Shape).Idx → EReal) (pred : (⟨3, ![B, U, P]⟩ : Shape).Idx → EReal)
    (wE : (⟨2, ![J, E]⟩ : Shape).Idx → EReal) (βE : (⟨1, ![J]⟩ : Shape).Idx → EReal)
    (wP : (⟨2, ![J, P]⟩ : Shape).Idx → EReal) (βP : (⟨1, ![J]⟩ : Shape).Idx → EReal)
    (wO : (⟨2, ![V, J]⟩ : Shape).Idx → EReal) (βO : (⟨1, ![V]⟩ : Shape).Idx → EReal) :
    (⟨4, ![B, T, U, V]⟩ : Shape).Idx → EReal :=
  joint (proj enc wE βE) (proj pred wP βP) wO βO

end Cert.Joint

end
-- ==== Proof.BlocksEnc.lean ====
/-
  The encoder projection's array after its region, for ANY contents `V` the region is entered with.

  The grid has one point per batch entry. At point `t` the input window holds batch entry `t` of the input array, the
  weight and bias windows hold their whole arrays, and the output window is batch entry `t` of the output array. So what
  point `t` writes back is batch entry `t` of `proj` of the three arrays, and since the eight blocks tile the output
  array, the array ends at `proj` of the three arrays.
-/
import proofs.«175210_j9182640079287_1_alg».proof.Proof.Gen.KernelIdeal.Frame
import proofs.«175210_j9182640079287_1_alg».proof.Proof.Body
import proofs.«175210_j9182640079287_1_alg».proof.Proof.Spec

set_option maxRecDepth 16384

noncomputable section

open scoped BigOperators

namespace Cert.KernelIdeal.Blocks

open Cert.KernelIdeal Cert.KernelIdeal.Gen Cert.Joint Idealize.ShloMosaic Idealize.ShloMosaic.TcCoe Idealize.SL.Sem
open Idealize.ShloMosaic.ValueIdx Idealize.ShloMosaic.Pipeline

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One stored entry of a projection block is the entry of `proj` with the same row and column in batch entry `b`,
    when the loaded input block is batch entry `b` of `A0` and the other two loaded blocks are `A1` and `A2`. -/
theorem enc_entry (X0 : Vec Ideal S1x256x512 .f32) (X1 : Vec Ideal S512x512 .f32) (X2 : Vec Ideal S512 .f32)
    (A0 : S8x256x512.Idx → EReal) (A1 : S512x512.Idx → EReal) (A2 : S512.Idx → EReal) (b : Fin 8)
    (h0 : ∀ (p : Fin 256) (k : Fin 512), X0 (ix3 (0 : Fin 1) p k) = A0 (ix3 b p k))
    (h1 : ∀ (j k : Fin 512), X1 (ix2 j k) = A1 (ix2 j k)) (h2 : ∀ j : Fin 512, X2 (ix1 j) = A2 (ix1 j))
    (y : S1x256x512.Idx) (i : S8x256x512.Idx) (hi0 : (i 0).val = b.val) (hi1 : (i 1).val = (y 1).val)
    (hi2 : (i 2).val = (y 2).val) :
    k0_pay1 (F := Ideal) X0 X1 X2 y = proj A0 A1 A2 i := by
  obtain ⟨u, p, j, rfl⟩ : ∃ (u : Fin 1) (p : Fin 256) (j : Fin 512), y = ix3 u p j := ⟨y 0, y 1, y 2, eq_ix3 y⟩
  obtain ⟨b', p', j', rfl⟩ : ∃ (b' : Fin 8) (p' : Fin 256) (j' : Fin 512), i = ix3 b' p' j' :=
    ⟨i 0, i 1, i 2, eq_ix3 i⟩
  have e0 : b' = b := Fin.ext hi0
  have e1 : p' = p := Fin.ext hi1
  have e2 : j' = j := Fin.ext hi2
  subst e0 e1 e2
  rw [Body.pay_enc, proj_ix3]
  unfold projAt
  simp only [h0, h1, h2]

variable (V : (c : Dev nD) → (b : Ref sig .tc) → Buf (Elt Ideal) ((c : Thread nD τ).loc b))

/-- The printed index maps over the eight points: input and output windows sit at batch entry `t`, the weights and
    the bias at their one block. -/
theorem idx_enc : ∀ t : Fin cfg0.N, win0_3.index t = ![t.val, 0, 0] ∧ win0_0.index t = ![t.val, 0, 0]
    ∧ win0_1.index t = ![0, 0] ∧ win0_2.index t = ![0] :=
  (by decide +kernel : ∀ t : Fin grid0.N, _)

/-- What point `t` writes back is block `t` of `proj` of the three arrays as the region finds them. -/
theorem flushed_enc (c : Dev nD) (t : Fin cfg0.N) :
    (dat0 (F := Ideal) V c).flushed 3 t
      = ((cfg0.win 3).blk t).view.read (Elt Ideal) (proj (V c main_arg0) (V c main_arg2) (V c main_arg3)) := by
  show (cfg0.win 3).cut (grid0.coords t) ((dat0 (F := Ideal) V c).after 3 t) = _
  rw [after0_3]
  unfold out0_3
  rw [View.canon_unit_zero hz3]
  simp only [View.ld_unit_zero (S := S1x256x512) hz3, View.ld_unit_zero (S := S512x512) hz2,
    View.ld_unit_zero (S := S512) hz1]
  obtain ⟨e3, e0, e1, e2⟩ := idx_enc t
  have ht : t.val < 8 := t.isLt
  funext y
  show k0_pay1 (F := Ideal) (iblk0 V c 0 t) (iblk0 V c 1 t) (iblk0 V c 2 t) y
    = proj (V c main_arg0) (V c main_arg2) (V c main_arg3) (((cfg0.win 3).blk t).view.emb y)
  refine enc_entry (iblk0 V c 0 t) (iblk0 V c 1 t) (iblk0 V c 2 t) (V c main_arg0) (V c main_arg2) (V c main_arg3)
    ⟨t.val, ht⟩ (fun p k => ?_) (fun j k => ?_) (fun j => ?_) y (((cfg0.win 3).blk t).view.emb y) ?_ ?_ ?_
  · show V c main_arg0 (((cfg0.win 0).blk t).view.emb (ix3 (0 : Fin 1) p k)) = V c main_arg0 (ix3 ⟨t.val, ht⟩ p k)
    refine congrArg (V c main_arg0) (funext fun a => Fin.ext ?_)
    match a with
    | ⟨0, _⟩ => show win0_0.index t (0 : Fin 3) * 1 + 1 * 0 = t.val; rw [e0]; show t.val * 1 + 1 * 0 = t.val; omega
    | ⟨1, _⟩ => show win0_0.index t (1 : Fin 3) * 256 + 1 * p.val = p.val; rw [e0]; show 0 * 256 + 1 * p.val = p.val; omega
    | ⟨2, _⟩ => show win0_0.index t (2 : Fin 3) * 512 + 1 * k.val = k.val; rw [e0]; show 0 * 512 + 1 * k.val = k.val; omega
  · show V c main_arg2 (((cfg0.win 1).blk t).view.emb (ix2 j k)) = V c main_arg2 (ix2 j k)
    refine congrArg (V c main_arg2) (funext fun a => Fin.ext ?_)
    match a with
    | ⟨0, _⟩ => show win0_1.index t (0 : Fin 2) * 512 + 1 * j.val = j.val; rw [e1]; show 0 * 512 + 1 * j.val = j.val; omega
    | ⟨1, _⟩ => show win0_1.index t (1 : Fin 2) * 512 + 1 * k.val = k.val; rw [e1]; show 0 * 512 + 1 * k.val = k.val; omega
  · show V c main_arg3 (((cfg0.win 2).blk t).view.emb (ix1 j)) = V c main_arg3 (ix1 j)
    refine congrArg (V c main_arg3) (funext fun a => Fin.ext ?_)
    match a with
    | ⟨0, _⟩ => show win0_2.index t (0 : Fin 1) * 512 + 1 * j.val = j.val; rw [e2]; show 0 * 512 + 1 * j.val = j.val; omega
  · show win0_3.index t (0 : Fin 3) * 1 + 1 * (y 0).val = t.val
    have hy : (y 0).val < 1 := (y 0).isLt
    rw [e3]; show t.val * 1 + 1 * (y 0).val = t.val; omega
  · show win0_3.index t (1 : Fin 3) * 256 + 1 * (y 1).val = (y 1).val
    rw [e3]; show 0 * 256 + 1 * (y 1).val = (y 1).val; omega
  · show win0_3.index t (2 : Fin 3) * 512 + 1 * (y 2).val = (y 2).val
    rw [e3]; show 0 * 512 + 1 * (y 2).val = (y 2).val; omega

/-- An index of the output array is in point `t`'s block iff each coordinate is in the block's range on its axis. -/
theorem mem_blk_enc (t : Fin cfg0.N) (i : S8x256x512.Idx) :
    i ∈ ((cfg0.win 3).blk t).view.set ↔ ∀ a : Fin 3, win0_3.index t a * S1x256x512.size a ≤ (i a).val
      ∧ (i a).val < win0_3.index t a * S1x256x512.size a + S1x256x512.size a := by
  show i ∈ ((View.whole main_v0).slice (win0_3.rect t)).set ↔ _
  rw [View.set_slice_whole, Rect.mem_set_unit]
  exact Iff.rfl

/-- Every entry of the output array is in the block of the point numbered by its batch coordinate. -/
theorem cover_enc (i : S8x256x512.Idx) :
    ∃ t : Fin cfg0.N, (cfg0.win 3).flush t = true ∧ i ∈ ((cfg0.win 3).blk t).view.set := by
  have h0 : (i 0).val < 8 := (i 0).isLt
  have h1 : (i 1).val < 256 := (i 1).isLt
  have h2 : (i 2).val < 512 := (i 2).isLt
  refine ⟨⟨(i 0).val, by rw [show cfg0.N = 8 from N_0]; exact h0⟩, flush0_3 _, ?_⟩
  rw [mem_blk_enc]
  obtain ⟨e3, -⟩ := idx_enc ⟨(i 0).val, by rw [show cfg0.N = 8 from N_0]; exact h0⟩
  intro a
  match a with
  | ⟨0, _⟩ =>
    show win0_3.index _ (0 : Fin 3) * 1 ≤ (i 0).val ∧ (i 0).val < win0_3.index _ (0 : Fin 3) * 1 + 1
    rw [e3]; show (i 0).val * 1 ≤ (i 0).val ∧ (i 0).val < (i 0).val * 1 + 1; omega
  | ⟨1, _⟩ =>
    show win0_3.index _ (1 : Fin 3) * 256 ≤ (i 1).val ∧ (i 1).val < win0_3.index _ (1 : Fin 3) * 256 + 256
    rw [e3]; show 0 * 256 ≤ (i 1).val ∧ (i 1).val < 0 * 256 + 256; omega
  | ⟨2, _⟩ =>
    show win0_3.index _ (2 : Fin 3) * 512 ≤ (i 2).val ∧ (i 2).val < win0_3.index _ (2 : Fin 3) * 512 + 512
    rw [e3]; show 0 * 512 ≤ (i 2).val ∧ (i 2).val < 0 * 512 + 512; omega

/-- The encoder projection's array after its region. -/
theorem final_enc (c : Dev nD) :
    (dat0 (F := Ideal) V c).arrAt 3 cfg0.N = proj (V c main_arg0) (V c main_arg2) (V c main_arg3) :=
  (dat0 (F := Ideal) V c).arrAt_eq_of_cover 3 (proj (V c main_arg0) (V c main_arg2) (V c main_arg3))
    (fun t _ => flushed_enc V c t) cover_enc

end Cert.KernelIdeal.Blocks

end
-- ==== Proof.BlocksPred.lean ====
/-
  The predictor projection's array after its region, for ANY contents `V` the region is entered with.

  As for the encoder: one grid point per batch entry; at point `t` the input and output windows are batch entry `t` of
  their arrays, the weights and the bias are loaded whole. The eight output blocks tile the array, which therefore ends
  at `proj` of the three arrays.
-/
import proofs.«175210_j9182640079287_1_alg».proof.Proof.BlocksEnc

set_option maxRecDepth 16384

noncomputable section

open scoped BigOperators

namespace Cert.KernelIdeal.Blocks

open Cert.KernelIdeal Cert.KernelIdeal.Gen Cert.Joint Idealize.ShloMosaic Idealize.ShloMosaic.TcCoe Idealize.SL.Sem
open Idealize.ShloMosaic.ValueIdx Idealize.ShloMosaic.Pipeline

/-- One stored entry of the predictor's block is the entry of `proj` with the same row and column in batch entry
    `b`, when the loaded input block is batch entry `b` of `A0` and the other two loaded blocks are `A1` and `A2`. -/
theorem pred_entry (X0 : Vec Ideal S1x64x640 .f32) (X1 : Vec Ideal S512x640 .f32) (X2 : Vec Ideal S512 .f32)
    (A0 : S8x64x640.Idx → EReal) (A1 : S512x640.Idx → EReal) (A2 : S512.Idx → EReal) (b : Fin 8)
    (h0 : ∀ (q : Fin 64) (k : Fin 640), X0 (ix3 (0 : Fin 1) q k) = A0 (ix3 b q k))
    (h1 : ∀ (j : Fin 512) (k : Fin 640), X1 (ix2 j k) = A1 (ix2 j k)) (h2 : ∀ j : Fin 512, X2 (ix1 j) = A2 (ix1 j))
    (y : S1x64x512.Idx) (i : S8x64x512.Idx) (hi0 : (i 0).val = b.val) (hi1 : (i 1).val = (y 1).val)
    (hi2 : (i 2).val = (y 2).val) :
    k1_pay1 (F := Ideal) X0 X1 X2 y = proj A0 A1 A2 i := by
  obtain ⟨u, q, j, rfl⟩ : ∃ (u : Fin 1) (q : Fin 64) (j : Fin 512), y = ix3 u q j := ⟨y 0, y 1, y 2, eq_ix3 y⟩
  obtain ⟨b', q', j', rfl⟩ : ∃ (b' : Fin 8) (q' : Fin 64) (j' : Fin 512), i = ix3 b' q' j' :=
    ⟨i 0, i 1, i 2, eq_ix3 i⟩
  have e0 : b' = b := Fin.ext hi0
  have e1 : q' = q := Fin.ext hi1
  have e2 : j' = j := Fin.ext hi2
  subst e0 e1 e2
  rw [Body.pay_pred, proj_ix3]
  unfold projAt
  simp only [h0, h1, h2]

variable (V : (c : Dev nD) → (b : Ref sig .tc) → Buf (Elt Ideal) ((c : Thread nD τ).loc b))

/-- The printed index maps over the eight points: input and output windows sit at batch entry `t`, the weights and
    the bias at their one block. -/
theorem idx_pred : ∀ t : Fin cfg1.N, win1_3.index t = ![t.val, 0, 0] ∧ win1_0.index t = ![t.val, 0, 0]
    ∧ win1_1.index t = ![0, 0] ∧ win1_2.index t = ![0] :=
  (by decide +kernel : ∀ t : Fin grid1.N, _)

/-- What point `t` writes back is block `t` of `proj` of the three arrays as the region finds them. -/
theorem flushed_pred (c : Dev nD) (t : Fin cfg1.N) :
    (dat1 (F := Ideal) V c).flushed 3 t
      = ((cfg1.win 3).blk t).view.read (Elt Ideal) (proj (V c main_arg1) (V c main_arg4) (V c main_arg5)) := by
  show (cfg1.win 3).cut (grid1.coords t) ((dat1 (F := Ideal) V c).after 3 t) = _
  rw [after1_3]
  unfold out1_3
  rw [View.canon_unit_zero hz3]
  simp only [View.ld_unit_zero (S := S1x64x640) hz3, View.ld_unit_zero (S := S512x640) hz2,
    View.ld_unit_zero (S := S512) hz1]
  obtain ⟨e3, e0, e1, e2⟩ := idx_pred t
  have ht : t.val < 8 := t.isLt
  funext y
  show k1_pay1 (F := Ideal) (iblk1 V c 0 t) (iblk1 V c 1 t) (iblk1 V c 2 t) y
    = proj (V c main_arg1) (V c main_arg4) (V c main_arg5) (((cfg1.win 3).blk t).view.emb y)
  refine pred_entry (iblk1 V c 0 t) (iblk1 V c 1 t) (iblk1 V c 2 t) (V c main_arg1) (V c main_arg4) (V c main_arg5)
    ⟨t.val, ht⟩ (fun q k => ?_) (fun j k => ?_) (fun j => ?_) y (((cfg1.win 3).blk t).view.emb y) ?_ ?_ ?_
  · show V c main_arg1 (((cfg1.win 0).blk t).view.emb (ix3 (0 : Fin 1) q k)) = V c main_arg1 (ix3 ⟨t.val, ht⟩ q k)
    refine congrArg (V c main_arg1) (funext fun a => Fin.ext ?_)
    match a with
    | ⟨0, _⟩ => show win1_0.index t (0 : Fin 3) * 1 + 1 * 0 = t.val; rw [e0]; show t.val * 1 + 1 * 0 = t.val; omega
    | ⟨1, _⟩ => show win1_0.index t (1 : Fin 3) * 64 + 1 * q.val = q.val; rw [e0]; show 0 * 64 + 1 * q.val = q.val; omega
    | ⟨2, _⟩ => show win1_0.index t (2 : Fin 3) * 640 + 1 * k.val = k.val; rw [e0]; show 0 * 640 + 1 * k.val = k.val; omega
  · show V c main_arg4 (((cfg1.win 1).blk t).view.emb (ix2 j k)) = V c main_arg4 (ix2 j k)
    refine congrArg (V c main_arg4) (funext fun a => Fin.ext ?_)
    match a with
    | ⟨0, _⟩ => show win1_1.index t (0 : Fin 2) * 512 + 1 * j.val = j.val; rw [e1]; show 0 * 512 + 1 * j.val = j.val; omega
    | ⟨1, _⟩ => show win1_1.index t (1 : Fin 2) * 640 + 1 * k.val = k.val; rw [e1]; show 0 * 640 + 1 * k.val = k.val; omega
  · show V c main_arg5 (((cfg1.win 2).blk t).view.emb (ix1 j)) = V c main_arg5 (ix1 j)
    refine congrArg (V c main_arg5) (funext fun a => Fin.ext ?_)
    match a with
    | ⟨0, _⟩ => show win1_2.index t (0 : Fin 1) * 512 + 1 * j.val = j.val; rw [e2]; show 0 * 512 + 1 * j.val = j.val; omega
  · show win1_3.index t (0 : Fin 3) * 1 + 1 * (y 0).val = t.val
    have hy : (y 0).val < 1 := (y 0).isLt
    rw [e3]; show t.val * 1 + 1 * (y 0).val = t.val; omega
  · show win1_3.index t (1 : Fin 3) * 64 + 1 * (y 1).val = (y 1).val
    rw [e3]; show 0 * 64 + 1 * (y 1).val = (y 1).val; omega
  · show win1_3.index t (2 : Fin 3) * 512 + 1 * (y 2).val = (y 2).val
    rw [e3]; show 0 * 512 + 1 * (y 2).val = (y 2).val; omega

/-- An index of the output array is in point `t`'s block iff each coordinate is in the block's range on its axis. -/
theorem mem_blk_pred (t : Fin cfg1.N) (i : S8x64x512.Idx) :
    i ∈ ((cfg1.win 3).blk t).view.set ↔ ∀ a : Fin 3, win1_3.index t a * S1x64x512.size a ≤ (i a).val
      ∧ (i a).val < win1_3.index t a * S1x64x512.size a + S1x64x512.size a := by
  show i ∈ ((View.whole main_v1).slice (win1_3.rect t)).set ↔ _
  rw [View.set_slice_whole, Rect.mem_set_unit]
  exact Iff.rfl

/-- Every entry of the output array is in the block of the point numbered by its batch coordinate. -/
theorem cover_pred (i : S8x64x512.Idx) :
    ∃ t : Fin cfg1.N, (cfg1.win 3).flush t = true ∧ i ∈ ((cfg1.win 3).blk t).view.set := by
  have h0 : (i 0).val < 8 := (i 0).isLt
  have h1 : (i 1).val < 64 := (i 1).isLt
  have h2 : (i 2).val < 512 := (i 2).isLt
  refine ⟨⟨(i 0).val, by rw [show cfg1.N = 8 from N_1]; exact h0⟩, flush1_3 _, ?_⟩
  rw [mem_blk_pred]
  obtain ⟨e3, -⟩ := idx_pred ⟨(i 0).val, by rw [show cfg1.N = 8 from N_1]; exact h0⟩
  intro a
  match a with
  | ⟨0, _⟩ =>
    show win1_3.index _ (0 : Fin 3) * 1 ≤ (i 0).val ∧ (i 0).val < win1_3.index _ (0 : Fin 3) * 1 + 1
    rw [e3]; show (i 0).val * 1 ≤ (i 0).val ∧ (i 0).val < (i 0).val * 1 + 1; omega
  | ⟨1, _⟩ =>
    show win1_3.index _ (1 : Fin 3) * 64 ≤ (i 1).val ∧ (i 1).val < win1_3.index _ (1 : Fin 3) * 64 + 64
    rw [e3]; show 0 * 64 ≤ (i 1).val ∧ (i 1).val < 0 * 64 + 64; omega
  | ⟨2, _⟩ =>
    show win1_3.index _ (2 : Fin 3) * 512 ≤ (i 2).val ∧ (i 2).val < win1_3.index _ (2 : Fin 3) * 512 + 512
    rw [e3]; show 0 * 512 ≤ (i 2).val ∧ (i 2).val < 0 * 512 + 512; omega

/-- The predictor projection's array after its region. -/
theorem final_pred (c : Dev nD) :
    (dat1 (F := Ideal) V c).arrAt 3 cfg1.N = proj (V c main_arg1) (V c main_arg4) (V c main_arg5) :=
  (dat1 (F := Ideal) V c).arrAt_eq_of_cover 3 (proj (V c main_arg1) (V c main_arg4) (V c main_arg5))
    (fun t _ => flushed_pred V c t) cover_pred

end Cert.KernelIdeal.Blocks

end
-- ==== Proof.BlocksJoint.lean ====
/-
  The joint step's array after its region, for ANY contents `V` the region is entered with.

  The grid is batch entry × encoder-row tile × output-column tile, 8 × 2 × 4 points numbered row-major: point `t` is
  batch entry `t / 8`, row tile `t / 4 % 2`, column tile `t % 4`. At that point the body sees 128 encoder rows of the
  batch entry starting at row `128 · tile`, all 64 predictor rows of the batch entry, and 256 rows of the output
  weights and biases starting at `256 · tile`; it writes the `[128, 64, 256]` box of outputs for those rows and columns.
  Each stored entry is the entry of `joint` at the matching place, and the 64 boxes tile the output array.
-/
import proofs.«175210_j9182640079287_1_alg».proof.Proof.BlocksEnc

set_option maxRecDepth 16384

noncomputable section

open scoped BigOperators

namespace Cert.KernelIdeal.Blocks

open Cert.KernelIdeal Cert.KernelIdeal.Gen Cert.Joint Idealize.ShloMosaic Idealize.ShloMosaic.TcCoe Idealize.SL.Sem
open Idealize.ShloMosaic.ValueIdx Idealize.ShloMosaic.Pipeline

/-- One stored entry of the joint block is the entry of `joint` in batch entry `b`, at the encoder row and the output
    column offset by the tiles' starts `r0` and `c0`, when the four loaded blocks are the matching parts of the four
    arrays. -/
theorem joint_entry (X0 : Vec Ideal S1x128x512 .f32) (X1 : Vec Ideal S1x64x512 .f32) (X2 : Vec Ideal S256x512 .f32)
    (X3 : Vec Ideal S256 .f32) (E : S8x256x512.Idx → EReal) (G : S8x64x512.Idx → EReal)
    (W : S1024x512.Idx → EReal) (β : S1024.Idx → EReal) (b : Fin 8) (r0 c0 : ℕ)
    (h0 : ∀ (p : Fin 128) (j : Fin 512) (t : Fin 256), t.val = r0 + p.val → X0 (ix3 (0 : Fin 1) p j) = E (ix3 b t j))
    (h1 : ∀ (q : Fin 64) (j : Fin 512), X1 (ix3 (0 : Fin 1) q j) = G (ix3 b q j))
    (h2 : ∀ (v : Fin 256) (j : Fin 512) (v' : Fin 1024), v'.val = c0 + v.val → X2 (ix2 v j) = W (ix2 v' j))
    (h3 : ∀ (v : Fin 256) (v' : Fin 1024), v'.val = c0 + v.val → X3 (ix1 v) = β (ix1 v'))
    (y : S1x128x64x256.Idx) (i : S8x256x64x1024.Idx) (hi0 : (i 0).val = b.val)
    (hi1 : (i 1).val = r0 + (y 1).val) (hi2 : (i 2).val = (y 2).val) (hi3 : (i 3).val = c0 + (y 3).val) :
    k2_pay1 (F := Ideal) X0 X1 X2 X3 y = joint E G W β i := by
  obtain ⟨u, p, q, v, rfl⟩ : ∃ (u : Fin 1) (p : Fin 128) (q : Fin 64) (v : Fin 256), y = ix4 u p q v :=
    ⟨y 0, y 1, y 2, y 3, eq_ix4 y⟩
  obtain ⟨b', t, q', v', rfl⟩ : ∃ (b' : Fin 8) (t : Fin 256) (q' : Fin 64) (v' : Fin 1024), i = ix4 b' t q' v' :=
    ⟨i 0, i 1, i 2, i 3, eq_ix4 i⟩
  have e0 : b' = b := Fin.ext hi0
  have e2 : q' = q := Fin.ext hi2
  subst e0 e2
  have ht : t.val = r0 + p.val := hi1
  have hv : v'.val = c0 + v.val := hi3
  rw [Body.pay_joint, joint_ix4]
  unfold jointAt
  rw [h3 v v' hv]
  refine congrArg (· + β (ix1 v')) (Finset.sum_congr rfl fun j _ => ?_)
  rw [h0 p j t ht, h1 q' j, h2 v j v' hv]

variable (V : (c : Dev nD) → (b : Ref sig .tc) → Buf (Elt Ideal) ((c : Thread nD τ).loc b))

/-- The printed index maps over the 64 points, in terms of the point's number. -/
theorem idx_joint : ∀ t : Fin cfg2.N, win2_4.index t = ![t.val / 8, t.val / 4 % 2, 0, t.val % 4]
    ∧ win2_0.index t = ![t.val / 8, t.val / 4 % 2, 0] ∧ win2_1.index t = ![t.val / 8, 0, 0]
    ∧ win2_2.index t = ![t.val % 4, 0] ∧ win2_3.index t = ![t.val % 4] :=
  (by decide +kernel : ∀ t : Fin grid2.N, _)

/-- What point `t` writes back is block `t` of `joint` of the four arrays as the region finds them. -/
theorem flushed_joint (c : Dev nD) (t : Fin cfg2.N) :
    (dat2 (F := Ideal) V c).flushed 4 t
      = ((cfg2.win 4).blk t).view.read (Elt Ideal)
          (joint (V c main_v0) (V c main_v1) (V c main_arg6) (V c main_arg7)) := by
  show (cfg2.win 4).cut (grid2.coords t) ((dat2 (F := Ideal) V c).after 4 t) = _
  rw [after2_4]
  unfold out2_4
  rw [View.canon_unit_zero hz4]
  simp only [View.ld_unit_zero (S := S1x128x512) hz3, View.ld_unit_zero (S := S1x64x512) hz3,
    View.ld_unit_zero (S := S256x512) hz2, View.ld_unit_zero (S := S256) hz1]
  obtain ⟨e4, e0, e1, e2, e3⟩ := idx_joint t
  have ht : t.val < 64 := lt_of_lt_of_eq t.isLt N_2
  funext y
  show k2_pay1 (F := Ideal) (iblk2 V c 0 t) (iblk2 V c 1 t) (iblk2 V c 2 t) (iblk2 V c 3 t) y
    = joint (V c main_v0) (V c main_v1) (V c main_arg6) (V c main_arg7) (((cfg2.win 4).blk t).view.emb y)
  refine joint_entry (iblk2 V c 0 t) (iblk2 V c 1 t) (iblk2 V c 2 t) (iblk2 V c 3 t)
    (V c main_v0) (V c main_v1) (V c main_arg6) (V c main_arg7) ⟨t.val / 8, by omega⟩
    (t.val / 4 % 2 * 128) (t.val % 4 * 256)
    (fun p j r hr => ?_) (fun q j => ?_) (fun v j v' hv => ?_) (fun v v' hv => ?_)
    y (((cfg2.win 4).blk t).view.emb y) ?_ ?_ ?_ ?_
  · show V c main_v0 (((cfg2.win 0).blk t).view.emb (ix3 (0 : Fin 1) p j)) = V c main_v0 (ix3 ⟨t.val / 8, _⟩ r j)
    refine congrArg (V c main_v0) (funext fun a => Fin.ext ?_)
    match a with
    | ⟨0, _⟩ => show win2_0.index t (0 : Fin 3) * 1 + 1 * 0 = t.val / 8; rw [e0]; show t.val / 8 * 1 + 1 * 0 = t.val / 8; omega
    | ⟨1, _⟩ => show win2_0.index t (1 : Fin 3) * 128 + 1 * p.val = r.val; rw [e0, hr]; show t.val / 4 % 2 * 128 + 1 * p.val = _; omega
    | ⟨2, _⟩ => show win2_0.index t (2 : Fin 3) * 512 + 1 * j.val = j.val; rw [e0]; show 0 * 512 + 1 * j.val = j.val; omega
  · show V c main_v1 (((cfg2.win 1).blk t).view.emb (ix3 (0 : Fin 1) q j)) = V c main_v1 (ix3 ⟨t.val / 8, _⟩ q j)
    refine congrArg (V c main_v1) (funext fun a => Fin.ext ?_)
    match a with
    | ⟨0, _⟩ => show win2_1.index t (0 : Fin 3) * 1 + 1 * 0 = t.val / 8; rw [e1]; show t.val / 8 * 1 + 1 * 0 = t.val / 8; omega
    | ⟨1, _⟩ => show win2_1.index t (1 : Fin 3) * 64 + 1 * q.val = q.val; rw [e1]; show 0 * 64 + 1 * q.val = q.val; omega
    | ⟨2, _⟩ => show win2_1.index t (2 : Fin 3) * 512 + 1 * j.val = j.val; rw [e1]; show 0 * 512 + 1 * j.val = j.val; omega
  · show V c main_arg6 (((cfg2.win 2).blk t).view.emb (ix2 v j)) = V c main_arg6 (ix2 v' j)
    refine congrArg (V c main_arg6) (funext fun a => Fin.ext ?_)
    match a with
    | ⟨0, _⟩ => show win2_2.index t (0 : Fin 2) * 256 + 1 * v.val = v'.val; rw [e2, hv]; show t.val % 4 * 256 + 1 * v.val = _; omega
    | ⟨1, _⟩ => show win2_2.index t (1 : Fin 2) * 512 + 1 * j.val = j.val; rw [e2]; show 0 * 512 + 1 * j.val = j.val; omega
  · show V c main_arg7 (((cfg2.win 3).blk t).view.emb (ix1 v)) = V c main_arg7 (ix1 v')
    refine congrArg (V c main_arg7) (funext fun a => Fin.ext ?_)
    match a with
    | ⟨0, _⟩ => show win2_3.index t (0 : Fin 1) * 256 + 1 * v.val = v'.val; rw [e3, hv]; show t.val % 4 * 256 + 1 * v.val = _; omega
  · show win2_4.index t (0 : Fin 4) * 1 + 1 * (y 0).val = t.val / 8
    have hy : (y 0).val < 1 := (y 0).isLt
    rw [e4]; show t.val / 8 * 1 + 1 * (y 0).val = t.val / 8; omega
  · show win2_4.index t (1 : Fin 4) * 128 + 1 * (y 1).val = t.val / 4 % 2 * 128 + (y 1).val
    rw [e4]; show t.val / 4 % 2 * 128 + 1 * (y 1).val = _; omega
  · show win2_4.index t (2 : Fin 4) * 64 + 1 * (y 2).val = (y 2).val
    rw [e4]; show 0 * 64 + 1 * (y 2).val = (y 2).val; omega
  · show win2_4.index t (3 : Fin 4) * 256 + 1 * (y 3).val = t.val % 4 * 256 + (y 3).val
    rw [e4]; show t.val % 4 * 256 + 1 * (y 3).val = _; omega

/-- An index of the output array is in point `t`'s block iff each coordinate is in the block's range on its axis. -/
theorem mem_blk_joint (t : Fin cfg2.N) (i : S8x256x64x1024.Idx) :
    i ∈ ((cfg2.win 4).blk t).view.set ↔ ∀ a : Fin 4, win2_4.index t a * S1x128x64x256.size a ≤ (i a).val
      ∧ (i a).val < win2_4.index t a * S1x128x64x256.size a + S1x128x64x256.size a := by
  show i ∈ ((View.whole main_v2).slice (win2_4.rect t)).set ↔ _
  rw [View.set_slice_whole, Rect.mem_set_unit]
  exact Iff.rfl

/-- Every entry of the output array is in the block of the point named by its batch entry, its row tile and its
    column tile. -/
theorem cover_joint (i : S8x256x64x1024.Idx) :
    ∃ t : Fin cfg2.N, (cfg2.win 4).flush t = true ∧ i ∈ ((cfg2.win 4).blk t).view.set := by
  have h0 : (i 0).val < 8 := (i 0).isLt
  have h1 : (i 1).val < 256 := (i 1).isLt
  have h2 : (i 2).val < 64 := (i 2).isLt
  have h3 : (i 3).val < 1024 := (i 3).isLt
  have hT : (i 0).val * 8 + (i 1).val / 128 * 4 + (i 3).val / 256 < cfg2.N := by
    rw [show cfg2.N = 64 from N_2]; omega
  refine ⟨⟨(i 0).val * 8 + (i 1).val / 128 * 4 + (i 3).val / 256, hT⟩, flush2_4 _, ?_⟩
  rw [mem_blk_joint]
  obtain ⟨e4, -⟩ := idx_joint ⟨(i 0).val * 8 + (i 1).val / 128 * 4 + (i 3).val / 256, hT⟩
  intro a
  match a with
  | ⟨0, _⟩ =>
    show win2_4.index _ (0 : Fin 4) * 1 ≤ (i 0).val ∧ (i 0).val < win2_4.index _ (0 : Fin 4) * 1 + 1
    rw [e4]
    show ((i 0).val * 8 + (i 1).val / 128 * 4 + (i 3).val / 256) / 8 * 1 ≤ (i 0).val
      ∧ (i 0).val < ((i 0).val * 8 + (i 1).val / 128 * 4 + (i 3).val / 256) / 8 * 1 + 1
    omega
  | ⟨1, _⟩ =>
    show win2_4.index _ (1 : Fin 4) * 128 ≤ (i 1).val ∧ (i 1).val < win2_4.index _ (1 : Fin 4) * 128 + 128
    rw [e4]
    show ((i 0).val * 8 + (i 1).val / 128 * 4 + (i 3).val / 256) / 4 % 2 * 128 ≤ (i 1).val
      ∧ (i 1).val < ((i 0).val * 8 + (i 1).val / 128 * 4 + (i 3).val / 256) / 4 % 2 * 128 + 128
    omega
  | ⟨2, _⟩ =>
    show win2_4.index _ (2 : Fin 4) * 64 ≤ (i 2).val ∧ (i 2).val < win2_4.index _ (2 : Fin 4) * 64 + 64
    rw [e4]; show 0 * 64 ≤ (i 2).val ∧ (i 2).val < 0 * 64 + 64; omega
  | ⟨3, _⟩ =>
    show win2_4.index _ (3 : Fin 4) * 256 ≤ (i 3).val ∧ (i 3).val < win2_4.index _ (3 : Fin 4) * 256 + 256
    rw [e4]
    show ((i 0).val * 8 + (i 1).val / 128 * 4 + (i 3).val / 256) % 4 * 256 ≤ (i 3).val
      ∧ (i 3).val < ((i 0).val * 8 + (i 1).val / 128 * 4 + (i 3).val / 256) % 4 * 256 + 256
    omega

/-- The joint step's array after its region. -/
theorem final_joint (c : Dev nD) :
    (dat2 (F := Ideal) V c).arrAt 4 cfg2.N = joint (V c main_v0) (V c main_v1) (V c main_arg6) (V c main_arg7) :=
  (dat2 (F := Ideal) V c).arrAt_eq_of_cover 4 (joint (V c main_v0) (V c main_v1) (V c main_arg6) (V c main_arg7))
    (fun t _ => flushed_joint V c t) cover_joint

end Cert.KernelIdeal.Blocks

end
-- ==== Proof.KernelRun.lean ====
/-
  The kernel program's run with its result array named.

  The program is three kernel regions, one after the other, with no host operation between them. Its buffers at the
  end are those of the launch, changed three times: each region replaces its output array by what its write-backs
  leave and keeps everything else. The first two regions leave the two projections of the argument arrays; the third
  reads those two arrays and the output weights and biases, which no region has written, and leaves the joint step of
  them: the network of the eight arguments.
-/
import proofs.«175210_j9182640079287_1_alg».proof.Proof.BlocksPred
import proofs.«175210_j9182640079287_1_alg».proof.Proof.BlocksJoint

set_option maxRecDepth 16384

noncomputable section

namespace Cert.KernelIdeal.Run

open Cert.KernelIdeal Cert.KernelIdeal.Gen Cert.Joint
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every buffer that outlives the kernels ends at the
    contents the three regions leave one after the other: the launch of the three regions as segments, with the final
    thread state read against the final memory and nothing forgotten. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Run

namespace Cert.KernelIdeal.Run

open Cert.KernelIdeal Cert.KernelIdeal.Gen Cert.Joint
open Idealize.ShloMosaic Idealize.ShloMosaic.TcCoe Idealize.SL.Sem

variable (m : (ℓ : Loc nD τ sig) → Buf (Elt Ideal) ℓ) (ρ : Dev nD → PrngReg)

/-- The third region's output array at the end is the network of the eight argument arrays as launched. -/
theorem result_at (c : Dev nD) :
    W3 (F := Ideal) m ρ c (Proc.devRef .tc main_v2)
      = network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  -- the encoder projection, written by the first region and kept by the second
  have hE : V2 (F := Ideal) m ρ c main_v0
      = proj (m ((c : Thread nD τ).loc main_arg0)) (m ((c : Thread nD τ).loc main_arg2)) (m ((c : Thread nD τ).loc main_arg3)) :=
    calc V2 (F := Ideal) m ρ c main_v0
      _ = W1 (F := Ideal) m ρ c (Proc.devRef .tc main_v0) := W2_of_ne m ρ c main_v0 (by decide)
      _ = (dat0 (V0 (F := Ideal) m ρ) c).arrAt 3 cfg0.N := W1_arr m ρ c 3
      _ = proj (V0 (F := Ideal) m ρ c main_arg0) (V0 (F := Ideal) m ρ c main_arg2) (V0 (F := Ideal) m ρ c main_arg3) :=
        Blocks.final_enc (V0 (F := Ideal) m ρ) c
      _ = _ := rfl
  -- the predictor's three arguments are as launched when the second region is entered
  have h1 : V1 (F := Ideal) m ρ c main_arg1 = m ((c : Thread nD τ).loc main_arg1) := W1_of_ne m ρ c main_arg1 (by decide)
  have h4 : V1 (F := Ideal) m ρ c main_arg4 = m ((c : Thread nD τ).loc main_arg4) := W1_of_ne m ρ c main_arg4 (by decide)
  have h5 : V1 (F := Ideal) m ρ c main_arg5 = m ((c : Thread nD τ).loc main_arg5) := W1_of_ne m ρ c main_arg5 (by decide)
  have hP : V2 (F := Ideal) m ρ c main_v1
      = proj (m ((c : Thread nD τ).loc main_arg1)) (m ((c : Thread nD τ).loc main_arg4)) (m ((c : Thread nD τ).loc main_arg5)) :=
    calc V2 (F := Ideal) m ρ c main_v1
      _ = (dat1 (V1 (F := Ideal) m ρ) c).arrAt 3 cfg1.N := W2_arr m ρ c 3
      _ = proj (V1 (F := Ideal) m ρ c main_arg1) (V1 (F := Ideal) m ρ c main_arg4) (V1 (F := Ideal) m ρ c main_arg5) :=
        Blocks.final_pred (V1 (F := Ideal) m ρ) c
      _ = _ := by rw [h1, h4, h5]
  -- the output weights and biases are as launched when the third region is entered
  have h6 : V2 (F := Ideal) m ρ c main_arg6 = m ((c : Thread nD τ).loc main_arg6) :=
    (W2_of_ne m ρ c main_arg6 (by decide)).trans (W1_of_ne m ρ c main_arg6 (by decide))
  have h7 : V2 (F := Ideal) m ρ c main_arg7 = m ((c : Thread nD τ).loc main_arg7) :=
    (W2_of_ne m ρ c main_arg7 (by decide)).trans (W1_of_ne m ρ c main_arg7 (by decide))
  calc W3 (F := Ideal) m ρ c (Proc.devRef .tc main_v2)
    _ = (dat2 (V2 (F := Ideal) m ρ) c).arrAt 4 cfg2.N := W3_arr m ρ c 4
    _ = joint (V2 (F := Ideal) m ρ c main_v0) (V2 (F := Ideal) m ρ c main_v1) (V2 (F := Ideal) m ρ c main_arg6)
          (V2 (F := Ideal) m ρ c main_arg7) := Blocks.final_joint (V2 (F := Ideal) m ρ) c
    _ = _ := by rw [hE, hP, h6, h7]; rfl

/-- The kernel program's run: the result array ends at the network of the arguments, which end as launched. -/
theorem run : θ_run defs (onTc (τ := τ) (main (F := Ideal))) ⟨m, fun _ => 0, ρ⟩ (fun r => ∀ c : Dev nD,
      r.2.mem ((c.tc : Thread nD τ).loc main_v2)
        = network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v2 (by decide))).trans (result_at m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)
    (run_ends m ρ)

end Cert.KernelIdeal.Run

end
-- ==== Proof.RefRead.lean ====
/-
  The reference computes the network of Spec.lean, entry by entry.

  Each of its two `dot_general`s against a weight matrix stored one output per row is, at an entry, the sum over the
  shared last axis; the bias vectors are broadcast along every other axis, so at an entry they contribute the bias of
  that entry's last coordinate; the encoder projection is broadcast along the predictor's row axis and the predictor
  projection along the encoder's, so entry `(b, t, u, j)` of their sum pairs encoder row `(b, t)` with predictor row
  `(b, u)`. The host's `tanh` and sum are the extended reals' own.
-/
import proofs.«175210_j9182640079287_1_alg».proof.Proof.Gen.ReferenceIdeal.Read
import proofs.«175210_j9182640079287_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.Joint Idealize.ShloMosaic Idealize.ShloMosaic.ValueIdx

/-- The encoder projection of the reference is `proj`. -/
theorem enc_eq (x0 : FVec Ideal S8x256x512 .f32) (x2 : FVec Ideal S512x512 .f32) (x3 : FVec Ideal S512 .f32) :
    val_main_v3 (F := Ideal) x0 x2 x3 = proj x0 x2 x3 := by
  funext i
  obtain ⟨b, t, j, rfl⟩ : ∃ (b : Fin 8) (t : Fin 256) (j : Fin 512), i = ix3 b t j := ⟨i 0, i 1, i 2, eq_ix3 i⟩
  have el : ∀ k : Fin 512, lidx_main_v0 (ix3 b t j) k = ix3 b t k := fun k =>
    funext fun a => match a with | ⟨0, _⟩ => rfl | ⟨1, _⟩ => rfl | ⟨2, _⟩ => rfl
  have er : ∀ k : Fin 512, ridx_main_v0 (ix3 b t j) k = ix2 j k := fun k =>
    funext fun a => match a with | ⟨0, _⟩ => rfl | ⟨1, _⟩ => rfl
  have eb : idx_main_v1 (idx_main_v2 (ix3 b t j)) = ix1 j := funext fun a => match a with | ⟨0, _⟩ => rfl
  rw [val_main_v3_apply, val_main_v0_apply, val_main_v2_apply, val_main_v1_apply, eb]
  simp only [el, er]
  rfl

/-- The predictor projection of the reference is `proj`. -/
theorem pred_eq (x1 : FVec Ideal S8x64x640 .f32) (x4 : FVec Ideal S512x640 .f32) (x5 : FVec Ideal S512 .f32) :
    val_main_v7 (F := Ideal) x1 x4 x5 = proj x1 x4 x5 := by
  funext i
  obtain ⟨b, u, j, rfl⟩ : ∃ (b : Fin 8) (u : Fin 64) (j : Fin 512), i = ix3 b u j := ⟨i 0, i 1, i 2, eq_ix3 i⟩
  have el : ∀ k : Fin 640, lidx_main_v4 (ix3 b u j) k = ix3 b u k := fun k =>
    funext fun a => match a with | ⟨0, _⟩ => rfl | ⟨1, _⟩ => rfl | ⟨2, _⟩ => rfl
  have er : ∀ k : Fin 640, ridx_main_v4 (ix3 b u j) k = ix2 j k := fun k =>
    funext fun a => match a with | ⟨0, _⟩ => rfl | ⟨1, _⟩ => rfl
  have eb : idx_main_v5 (idx_main_v6 (ix3 b u j)) = ix1 j := funext fun a => match a with | ⟨0, _⟩ => rfl
  rw [val_main_v7_apply, val_main_v4_apply, val_main_v6_apply, val_main_v5_apply, eb]
  simp only [el, er]
  rfl

/-- The whole reference is `network` of its eight arguments. -/
theorem result_eq (x0 : FVec Ideal S8x256x512 .f32) (x1 : FVec Ideal S8x64x640 .f32) (x2 : FVec Ideal S512x512 .f32)
    (x3 : FVec Ideal S512 .f32) (x4 : FVec Ideal S512x640 .f32) (x5 : FVec Ideal S512 .f32)
    (x6 : FVec Ideal S1024x512 .f32) (x7 : FVec Ideal S1024 .f32) :
    val_main_v17 (F := Ideal) x0 x1 x2 x3 x4 x5 x6 x7 = network x0 x1 x2 x3 x4 x5 x6 x7 := by
  funext i
  obtain ⟨b, t, u, v, rfl⟩ : ∃ (b : Fin 8) (t : Fin 256) (u : Fin 64) (v : Fin 1024), i = ix4 b t u v :=
    ⟨i 0, i 1, i 2, i 3, eq_ix4 i⟩
  have el : ∀ j : Fin 512, lidx_main_v14 (ix4 b t u v) j = ix4 b t u j := fun j =>
    funext fun a => match a with | ⟨0, _⟩ => rfl | ⟨1, _⟩ => rfl | ⟨2, _⟩ => rfl | ⟨3, _⟩ => rfl
  have er : ∀ j : Fin 512, ridx_main_v14 (ix4 b t u v) j = ix2 v j := fun j =>
    funext fun a => match a with | ⟨0, _⟩ => rfl | ⟨1, _⟩ => rfl
  have eb : idx_main_v15 (idx_main_v16 (ix4 b t u v)) = ix1 v := funext fun a => match a with | ⟨0, _⟩ => rfl
  have ee : ∀ j : Fin 512, idx_main_v8 (idx_main_v10 (ix4 b t u j)) = ix3 b t j := fun j =>
    funext fun a => match a with | ⟨0, _⟩ => rfl | ⟨1, _⟩ => rfl | ⟨2, _⟩ => rfl
  have ep : ∀ j : Fin 512, idx_main_v9 (idx_main_v11 (ix4 b t u j)) = ix3 b u j := fun j =>
    funext fun a => match a with | ⟨0, _⟩ => rfl | ⟨1, _⟩ => rfl | ⟨2, _⟩ => rfl
  rw [val_main_v17_apply, val_main_v14_apply, val_main_v16_apply, val_main_v15_apply, eb]
  simp only [el, er, val_main_v13_apply, val_main_v12_apply, val_main_v10_apply, val_main_v8_apply,
    val_main_v11_apply, val_main_v9_apply, ee, ep, enc_eq, pred_eq]
  rfl

end Cert.ReferenceIdeal.RefValue

end
-- ==== Proof.lean ====
/-
  A transducer's joint network as three kernels, against the same network written with einsums.

  Both programs compute, for every batch entry `b`, encoder frame `t`, predictor step `u` and vocabulary entry `v`,

      out[b, t, u, v] = Σ_j tanh (enc[b, t, j] + pred[b, u, j]) · W_out[v, j] + b_out[v],
      enc[b, t, j]  = Σ_e enc_out[b, t, e] · W_enc[j, e] + b_enc[j],
      pred[b, u, j] = Σ_p pred_out[b, u, p] · W_pred[j, p] + b_pred[j]

  (Proof/Spec.lean). The kernels round the operands of each product to a shorter float format and cut the work into
  blocks; on the extended reals a change of format is the identity and a blocking only decides WHERE an entry is
  computed, not how: each entry is the same sum of the same products in both programs, so they agree on all extended
  reals and finiteness of the inputs is never used.

  The kernel side: what each body stores at an entry of its block (Proof/Body.lean); each region's array after the
  region, from the blocks (Proof/BlocksEnc.lean, BlocksPred.lean, BlocksJoint.lean); the three regions chained
  (Proof/KernelRun.lean). The reference side: its operations read at an entry (Proof/RefRead.lean). The ideal pass
  rewrote no operation, so nothing is owed for `preserves`.
-/
import proofs.«175210_j9182640079287_1_alg».proof.Defs
import proofs.«175210_j9182640079287_1_alg».proof.Proof.Gen.Kernel
import proofs.«175210_j9182640079287_1_alg».proof.Proof.Gen.Kernel.Skeleton
import proofs.«175210_j9182640079287_1_alg».proof.Proof.Gen.Kernel.Launch
import proofs.«175210_j9182640079287_1_alg».proof.Proof.Gen.Kernel.Points
import proofs.«175210_j9182640079287_1_alg».proof.Proof.Gen.Kernel.Frame
import proofs.«175210_j9182640079287_1_alg».proof.Proof.Gen.KernelIdeal
import proofs.«175210_j9182640079287_1_alg».proof.Proof.Gen.KernelIdeal.Skeleton
import proofs.«175210_j9182640079287_1_alg».proof.Proof.Gen.KernelIdeal.Launch
import proofs.«175210_j9182640079287_1_alg».proof.Proof.Gen.KernelIdeal.Points
import proofs.«175210_j9182640079287_1_alg».proof.Proof.Gen.KernelIdeal.Frame
import proofs.«175210_j9182640079287_1_alg».proof.Proof.Gen.ReferenceIdeal
import proofs.«175210_j9182640079287_1_alg».proof.Proof.Gen.ReferenceIdeal.Run
import proofs.«175210_j9182640079287_1_alg».proof.Proof.Gen.ReferenceIdeal.Read
import proofs.«175210_j9182640079287_1_alg».proof.Proof.Gen.Pre_finite_inputs
import proofs.«175210_j9182640079287_1_alg».proof.Proof.KernelRun
import proofs.«175210_j9182640079287_1_alg».proof.Proof.RefRead
import Idealize.ShloMosaic.Adequacy
import Idealize.ShloMosaic.Init

noncomputable section

namespace Cert.Proof

open Idealize.ShloMosaic Idealize.ShloMosaic.TcCoe Idealize.SL.Sem

/-- The kernel program terminates without a fault and keeps its arguments. -/
theorem frame_k : Cert.frame_Kernel := fun m ρ _ => Cert.Kernel.Gen.frame m ρ

/-- So does the same program read on the extended reals. -/
theorem frame_ki : Cert.frame_KernelIdeal := fun m ρ _ => Cert.KernelIdeal.Gen.frame m ρ

/-- The reference is a line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories that agree on the eight arguments both programs end with the network of those arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.ReferenceIdeal.Read.val_main_v17_eq _ _ _ _ _ _ _ _).trans
    (Cert.ReferenceIdeal.RefValue.result_eq _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
